-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x64 : Shape := ⟨3, ![8192, 64, 64]⟩
abbrev S8192x8x24 : Shape := ⟨3, ![8192, 8, 24]⟩
abbrev S4288x1858 : Shape := ⟨2, ![4288, 1858]⟩
abbrev S_ : Shape := ⟨0, ![]⟩

class Facts : Prop where
  bcast_S_S8192x64x64 : S_.BroadcastsInDim S8192x64x64 (![] : Fin 0 → Fin S8192x64x64.rank)
  reducesTo_S8192x64x64_S_d0_1_2 : S8192x64x64.ReducesTo [0, 1, 2] S_
  h_S_ : 0 < S_.numel
  bcast_S_S8192x8x24 : S_.BroadcastsInDim S8192x8x24 (![] : Fin 0 → Fin S8192x8x24.rank)
  reducesTo_S8192x8x24_S_d0_1_2 : S8192x8x24.ReducesTo [0, 1, 2] S_
  bcast_S_S4288x1858 : S_.BroadcastsInDim S4288x1858 (![] : Fin 0 → Fin S4288x1858.rank)
  reducesTo_S4288x1858_S_d0_1 : S4288x1858.ReducesTo [0, 1] S_

variable [Facts]

def fn {F : FTy → Type} [FloatOps F] (main_arg0 : FVec F S8192x64x64 .f32) (main_arg1 : FVec F S8192x8x24 .f32) (main_arg2 : FVec F S4288x1858 .f32) : IVec S_ 1 :=
  let main_v0 : FVec F S8192x64x64 .f32 := Host.absf main_arg0
  let main_cst : FVec F S_ .f32 := constant S_ .f32 0x7F800000#32
  let main_v1 : FVec F S8192x64x64 .f32 := broadcastInDim S8192x64x64 ![] bcast_S_S8192x64x64 main_cst
  let main_v2 : IVec S8192x64x64 1 := cmpf .olt main_v0 main_v1
  let main_c : IVec S_ 1 := constantI S_ 1 1#1
  let main_v3 : IVec S_ 1 := (fun x v => Host.reduce IntOp.andi x v reducesTo_S8192x64x64_S_d0_1_2 h_S_) main_v2 main_c
  let main_v4 : FVec F S8192x8x24 .f32 := Host.absf main_arg1
  let main_cst_0 : FVec F S_ .f32 := constant S_ .f32 0x7F800000#32
  let main_v5 : FVec F S8192x8x24 .f32 := broadcastInDim S8192x8x24 ![] bcast_S_S8192x8x24 main_cst_0
  let main_v6 : IVec S8192x8x24 1 := cmpf .olt main_v4 main_v5
  let main_c_1 : IVec S_ 1 := constantI S_ 1 1#1
  let main_v7 : IVec S_ 1 := (fun x v => Host.reduce IntOp.andi x v reducesTo_S8192x8x24_S_d0_1_2 h_S_) main_v6 main_c_1
  let main_v8 : IVec S_ 1 := andi main_v3 main_v7
  let main_v9 : FVec F S4288x1858 .f32 := Host.absf main_arg2
  let main_cst_2 : FVec F S_ .f32 := constant S_ .f32 0x7F800000#32
  let main_v10 : FVec F S4288x1858 .f32 := broadcastInDim S4288x1858 ![] bcast_S_S4288x1858 main_cst_2
  let main_v11 : IVec S4288x1858 1 := cmpf .olt main_v9 main_v10
  let main_c_3 : IVec S_ 1 := constantI S_ 1 1#1
  let main_v12 : IVec S_ 1 := (fun x v => Host.reduce IntOp.andi x v reducesTo_S4288x1858_S_d0_1 h_S_) main_v11 main_c_3
  let main_v13 : IVec S_ 1 := andi main_v8 main_v12
  main_v13
-- ==== Kernel.lean ====
abbrev S8192x64x64 : Shape := ⟨3, ![8192, 64, 64]⟩
abbrev S8192x8x24 : Shape := ⟨3, ![8192, 8, 24]⟩
abbrev S4288x1858 : Shape := ⟨2, ![4288, 1858]⟩
abbrev S8192x4096 : Shape := ⟨2, ![8192, 4096]⟩
abbrev S8192x192 : Shape := ⟨2, ![8192, 192]⟩
abbrev S4096x1858 : Shape := ⟨2, ![4096, 1858]⟩
abbrev S192x1858 : Shape := ⟨2, ![192, 1858]⟩
abbrev S8192x1858 : Shape := ⟨2, ![8192, 1858]⟩
abbrev S256x4096 : Shape := ⟨2, ![256, 4096]⟩
abbrev S256x192 : Shape := ⟨2, ![256, 192]⟩
abbrev S256x1858 : Shape := ⟨2, ![256, 1858]⟩

abbrev nBuf : Space → Nat
  | .hbm => 10
  | .vmem => 8
  | .smem => 0
  | _ => 0

abbrev bufTy : (tb : Table) → Fin (tcTables nBuf tb) → BufTy
  | .hbm, ⟨0, _⟩ => ⟨S8192x64x64, .f32⟩
  | .hbm, ⟨1, _⟩ => ⟨S8192x8x24, .f32⟩
  | .hbm, ⟨2, _⟩ => ⟨S4288x1858, .f32⟩
  | .hbm, ⟨3, _⟩ => ⟨S8192x4096, .f32⟩
  | .hbm, ⟨4, _⟩ => ⟨S8192x192, .f32⟩
  | .hbm, ⟨5, _⟩ => ⟨S4096x1858, .f32⟩
  | .hbm, ⟨6, _⟩ => ⟨S4096x1858, .bf16⟩
  | .hbm, ⟨7, _⟩ => ⟨S192x1858, .f32⟩
  | .hbm, ⟨8, _⟩ => ⟨S192x1858, .bf16⟩
  | .hbm, ⟨9, _⟩ => ⟨S8192x1858, .f32⟩
  | .local _ .vmem, ⟨0, _⟩ => ⟨S256x4096, .f32⟩
  | .local _ .vmem, ⟨1, _⟩ => ⟨S256x4096, .f32⟩
  | .local _ .vmem, ⟨2, _⟩ => ⟨S256x192, .f32⟩
  | .local _ .vmem, ⟨3, _⟩ => ⟨S256x192, .f32⟩
  | .local _ .vmem, ⟨4, _⟩ => ⟨S4096x1858, .bf16⟩
  | .local _ .vmem, ⟨5, _⟩ => ⟨S192x1858, .bf16⟩
  | .local _ .vmem, ⟨6, _⟩ => ⟨S256x1858, .f32⟩
  | .local _ .vmem, ⟨7, _⟩ => ⟨S256x1858, .f32⟩
  | _, _ => ⟨S8192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1858 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1858 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1858 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192x64x64_S8192x4096 : S8192x64x64.ShapeCasts S8192x4096
  shapeCasts_S8192x8x24_S8192x192 : S8192x8x24.ShapeCasts S8192x192
  slices_S4288x1858_S4096x1858_0_0 : S4288x1858.Slices ![0, 0] S4096x1858
  bitsLt_bf16_f32 : FTy.bits .bf16 < FTy.bits .f32
  slices_S4288x1858_S192x1858_4096_0 : S4288x1858.Slices ![4096, 0] S192x1858
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S4096x1858_S4096x1858_0_0 : ∀ a, (![0, 0] : Fin 2 → Nat) a + S4096x1858.size a ≤ S4096x1858.size a
  h_S4096x1858 : 0 < S4096x1858.numel
  shapeCasts_S4096x1858_S4096x1858 : S4096x1858.ShapeCasts S4096x1858
  inb_S192x1858_S192x1858_0_0 : ∀ a, (![0, 0] : Fin 2 → Nat) a + S192x1858.size a ≤ S192x1858.size a
  h_S192x1858 : 0 < S192x1858.numel
  shapeCasts_S192x1858_S192x1858 : S192x1858.ShapeCasts S192x1858
  inb_S256x1858_S256x1858_0_0 : ∀ a, (![0, 0] : Fin 2 → Nat) a + S256x1858.size a ≤ S256x1858.size a
  h_S256x1858 : 0 < S256x1858.numel
  dot_S256x4096_S4096x1858_S256x1858_1_0_0_1_n_n_wf : DotDims.WF S256x4096 S4096x1858 S256x1858 [1] [0] [0] [1] [] []
  dot_S256x192_S192x1858_S256x1858_1_0_0_1_n_n_wf : DotDims.WF S256x192 S192x1858 S256x1858 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x192.size a ≤ S8192x192.size a
  hwx0_1 : ∀ i : grid0.Coords, EltTy.bits .f32 = 32 ∨ (Rect.block (s := S8192x192) S256x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1858.size a ≤ S4096x1858.size a
  hwx0_2 : ∀ i : grid0.Coords, EltTy.bits .bf16 = 32 ∨ (Rect.block (s := S4096x1858) S4096x1858.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x1858.size a ≤ S192x1858.size a
  hwx0_3 : ∀ i : grid0.Coords, EltTy.bits .bf16 = 32 ∨ (Rect.block (s := S192x1858) S192x1858.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1858.size a ≤ S8192x1858.size a
  hwx0_4 : ∀ i : grid0.Coords, EltTy.bits .f32 = 32 ∨ (Rect.block (s := S8192x1858) S256x1858.size (cc0_transform_4 i) (hinb0_4 i)).WholeWords (EltTy.packing .f32)

variable [Facts₀]

def dot_S256x4096_S4096x1858_S256x1858_1_0_0_1_n_n : DotDims S256x4096 S4096x1858 S256x1858 where
  lhsContracting := [1]
  rhsContracting := [0]
  lhsNonContracting := [0]
  rhsNonContracting := [1]
  lhsBatch := []
  rhsBatch := []
  wf := dot_S256x4096_S4096x1858_S256x1858_1_0_0_1_n_n_wf
def dot_S256x192_S192x1858_S256x1858_1_0_0_1_n_n : DotDims S256x192 S192x1858 S256x1858 where
  lhsContracting := [1]
  rhsContracting := [0]
  lhsNonContracting := [0]
  rhsNonContracting := [1]
  lhsBatch := []
  rhsBatch := []
  wf := dot_S256x192_S192x1858_S256x1858_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x1858.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S192x1858.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x1858.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64x64 : Shape := ⟨3, ![8192, 64, 64]⟩
abbrev S8192x8x24 : Shape := ⟨3, ![8192, 8, 24]⟩
abbrev S4288x1858 : Shape := ⟨2, ![4288, 1858]⟩
abbrev S8192x4096 : Shape := ⟨2, ![8192, 4096]⟩
abbrev S8192x192 : Shape := ⟨2, ![8192, 192]⟩
abbrev S8192x4288 : Shape := ⟨2, ![8192, 4288]⟩
abbrev S8192x1858 : Shape := ⟨2, ![8192, 1858]⟩

abbrev nBuf : Space → Nat
  | .hbm => 7
  | .vmem => 0
  | .smem => 0
  | _ => 0

abbrev bufTy : (tb : Table) → Fin (tcTables nBuf tb) → BufTy
  | .hbm, ⟨0, _⟩ => ⟨S8192x64x64, .f32⟩
  | .hbm, ⟨1, _⟩ => ⟨S8192x8x24, .f32⟩
  | .hbm, ⟨2, _⟩ => ⟨S4288x1858, .f32⟩
  | .hbm, ⟨3, _⟩ => ⟨S8192x4096, .f32⟩
  | .hbm, ⟨4, _⟩ => ⟨S8192x192, .f32⟩
  | .hbm, ⟨5, _⟩ => ⟨S8192x4288, .f32⟩
  | .hbm, ⟨6, _⟩ => ⟨S8192x1858, .f32⟩
  | _, _ => ⟨S8192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S8192x64x64_S8192x4096 : S8192x64x64.ShapeCasts S8192x4096
  shapeCasts_S8192x8x24_S8192x192 : S8192x8x24.ShapeCasts S8192x192
  concatenates_S8192x4096_S8192x192_S8192x4288_d1 : Shape.Concatenates [S8192x4096, S8192x192] S8192x4288 1
  dot_S8192x4288_S4288x1858_S8192x1858_1_0_0_1_n_n_wf : DotDims.WF S8192x4288 S4288x1858 S8192x1858 [1] [0] [0] [1] [] []

variable [Facts₀]

def dot_S8192x4288_S4288x1858_S8192x1858_1_0_0_1_n_n : DotDims S8192x4288 S4288x1858 S8192x1858 where
  lhsContracting := [1]
  rhsContracting := [0]
  lhsNonContracting := [0]
  rhsNonContracting := [1]
  lhsBatch := []
  rhsBatch := []
  wf := dot_S8192x4288_S4288x1858_S8192x1858_1_0_0_1_n_n_wf

class Facts : Prop extends Facts₀ where

variable [Facts]
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Spec.lean ====
/-
  The policy map as one function of three arrays, and the law that joins its two arrangements.

  A batch row of move scores (4096 of them) and a batch row of promotion scores (192 of them) are mapped to
  1858 outputs through a weight matrix of 4288 = 4096 + 192 rows: output (p, q) is the sum over the weight
  matrix's rows k of score (p, k) times weight (k, q), where score row p is the move row followed by the
  promotion row. Summing over all 4288 rows at once, or over the upper band (rows 0 … 4095, against the move
  scores) and the lower band (rows 4096 … 4287, against the promotion scores) separately and adding the two,
  gives the same extended real: a finite sum over a disjoint union of index sets splits, in any commutative
  monoid, so nothing is asked of the summands (no finiteness).
-/
import Idealize.ShloMosaic.Lib.ValueIdx
import Idealize.ShloMosaic.Lib.Pipeline.Value
import Idealize.ShloMosaic.PureOps.Ideal.Laws
import proofs.«161935_j39608188404137_2_alg».proof.Proof.LibMatmul

open scoped BigOperators

noncomputable section

namespace Cert.PolicyMap

open Idealize.ShloMosaic Idealize.ShloMosaic.ValueIdx

/-- Row j of the weight matrix's upper band, as a row of the whole matrix. -/
abbrev upper (j : Fin 4096) : Fin 4288 := ⟨j.val, by omega⟩

/-- Row j of the weight matrix's lower band, as a row of the whole matrix: 4096 rows further down. -/
abbrev lower (j : Fin 192) : Fin 4288 := ⟨4096 + j.val, by omega⟩

/-- Output (p, q): move scores of batch row p against the upper band's column q, plus promotion scores of
    batch row p against the lower band's column q. -/
def policyAt (A : FVec Ideal ⟨2, ![8192, 4096]⟩ .f32) (B : FVec Ideal ⟨2, ![8192, 192]⟩ .f32)
    (W : FVec Ideal ⟨2, ![4288, 1858]⟩ .f32) (p : Fin 8192) (q : Fin 1858) : EReal :=
  (∑ j : Fin 4096, A (ix2 p j) * W (ix2 (upper j) q)) + ∑ j : Fin 192, B (ix2 p j) * W (ix2 (lower j) q)

/-- The whole output array. -/
def policy (A : FVec Ideal ⟨2, ![8192, 4096]⟩ .f32) (B : FVec Ideal ⟨2, ![8192, 192]⟩ .f32)
    (W : FVec Ideal ⟨2, ![4288, 1858]⟩ .f32) : FVec Ideal ⟨2, ![8192, 1858]⟩ .f32 :=
  fun i => policyAt A B W (i 0) (i 1)

theorem policy_ix2 (A : FVec Ideal ⟨2, ![8192, 4096]⟩ .f32) (B : FVec Ideal ⟨2, ![8192, 192]⟩ .f32)
    (W : FVec Ideal ⟨2, ![4288, 1858]⟩ .f32) (p : Fin 8192) (q : Fin 1858) :
    policy A B W (ix2 p q) = policyAt A B W p q := rfl

/-- A sum over the 4288 rows is the sum over the upper band plus the sum over the lower band. -/
theorem sum_bands (f : Fin 4288 → EReal) :
    ∑ k : Fin 4288, f k = (∑ j : Fin 4096, f (upper j)) + ∑ j : Fin 192, f (lower j) := by
  have h := Fin.sum_univ_add (a := 4096) (b := 192) (fun k : Fin (4096 + 192) => f ⟨k.val, k.isLt⟩)
  exact h

section Joined

variable (A : FVec Ideal ⟨2, ![8192, 4096]⟩ .f32) (B : FVec Ideal ⟨2, ![8192, 192]⟩ .f32)
  (hc : Shape.Concatenates [(⟨2, ![8192, 4096]⟩ : Shape), ⟨2, ![8192, 192]⟩] ⟨2, ![8192, 4288]⟩ 1)

/-- The joined score row read at one of its first 4096 columns is the move score there. -/
theorem joined_upper (p : Fin 8192) (j : Fin 4096) :
    concatenate ⟨2, ![8192, 4288]⟩ 1 [⟨⟨2, ![8192, 4096]⟩, A⟩, ⟨⟨2, ![8192, 192]⟩, B⟩] hc (ix2 p (upper j)) = A (ix2 p j) :=
  concatenate_pair_apply_left 1 A B hc (ix2 p (upper j)) rfl (ix2 p j) (fun b => by
    match b with
    | ⟨0, _⟩ => rfl
    | ⟨1, _⟩ => rfl)

/-- The joined score row read 4096 columns in or further is the promotion score, 4096 columns back. -/
theorem joined_lower (p : Fin 8192) (j : Fin 192) :
    concatenate ⟨2, ![8192, 4288]⟩ 1 [⟨⟨2, ![8192, 4096]⟩, A⟩, ⟨⟨2, ![8192, 192]⟩, B⟩] hc (ix2 p (lower j)) = B (ix2 p j) :=
  concatenate_pair_apply_right 1 A B hc (ix2 p (lower j)) rfl rfl (ix2 p j) (fun b hb => by
    match b with
    | ⟨0, _⟩ => rfl
    | ⟨1, _⟩ => exact absurd rfl hb) (by show j.val + 4096 = 4096 + j.val; omega)

/-- The product of the joined scores with the whole weight matrix is the policy map. -/
theorem dot_joined_eq_policy (W : FVec Ideal ⟨2, ![4288, 1858]⟩ .f32)
    (d : DotDims ⟨2, ![8192, 4288]⟩ ⟨2, ![4288, 1858]⟩ ⟨2, ![8192, 1858]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) :
    FloatOps.dotGeneral d prec sched
        (concatenate ⟨2, ![8192, 4288]⟩ 1 [⟨⟨2, ![8192, 4096]⟩, A⟩, ⟨⟨2, ![8192, 192]⟩, B⟩] hc : FVec Ideal ⟨2, ![8192, 4288]⟩ .f32) W
      = policy A B W := by
  funext i
  obtain ⟨p, q, rfl⟩ : ∃ (p : Fin 8192) (q : Fin 1858), i = ix2 p q := ⟨i 0, i 1, eq_ix2 i⟩
  rw [dotGeneral_ix2 d hl hr hln hrn hlb hrb, sum_bands, policy_ix2]
  unfold policyAt
  simp only [joined_upper, joined_lower]

end Joined

end Cert.PolicyMap

end
-- ==== Proof.Payload.lean ====
/-
  What the kernel body stores for one batch tile, entry by entry.

  The body loads a tile of 256 move-score rows, a tile of 256 promotion-score rows, and the two bands of the
  weight matrix whole; it multiplies the move tile by the upper band and the promotion tile by the lower band,
  each product started from zero, and stores the sum of the two products. On the extended reals the change
  of float format on the way into each product is the identity and a reshape to the same shape moves nothing, so
  entry (p, q) of what is stored is: the sum over the upper band's rows j of move (p, j) · upper (j, q), plus the
  sum over the lower band's rows j of promotion (p, j) · lower (j, q).
-/
import proofs.«161935_j39608188404137_2_alg».proof.Proof.Gen.KernelIdeal.Skeleton
import proofs.«161935_j39608188404137_2_alg».proof.Proof.LibMatmul
import Idealize.ShloMosaic.Lib.Pipeline.Value
import Idealize.ShloMosaic.Lib.ValueIdx

open scoped BigOperators

noncomputable section

namespace Cert.KernelIdeal.Tile

open Cert.KernelIdeal Cert.KernelIdeal.Gen Idealize.ShloMosaic Idealize.ShloMosaic.ValueIdx

/-- Entry (p, q) of the tile the body stores, from the four loaded blocks. -/
theorem stored_apply (a : FVec Ideal S256x4096 .f32) (b : FVec Ideal S256x192 .f32)
    (wa : FVec Ideal S4096x1858 .bf16) (wb : FVec Ideal S192x1858 .bf16) (p : Fin 256) (q : Fin 1858) :
    k0_pay1 (F := Ideal) a b wa wb (ix2 p q)
      = (∑ j : Fin 4096, a (ix2 p j) * wa (ix2 j q)) + ∑ j : Fin 192, b (ix2 p j) * wb (ix2 j q) := by
  unfold k0_pay1
  simp only [shapeCast_self]
  refine (addf_apply _ _ (ix2 p q)).trans ?_
  refine congrArg₂ (· + ·) ?_ ?_
  · exact matmul_zero_ix2 dot_S256x4096_S4096x1858_S256x1858_1_0_0_1_n_n rfl rfl rfl rfl rfl rfl none
      (truncf .bf16 a bitsLt_bf16_f32) wa p q
  · exact matmul_zero_ix2 dot_S256x192_S192x1858_S256x1858_1_0_0_1_n_n rfl rfl rfl rfl rfl rfl none
      (truncf .bf16 b bitsLt_bf16_f32) wb p q

end Cert.KernelIdeal.Tile

end
-- ==== Proof.HostPrefix.lean ====
/-
  What the kernel's region finds in the four arrays it reads.

  Before the region the program flattens each batch row of the move scores (64 × 64 → 4096) and of the promotion
  scores (8 × 24 → 192), cuts the weight matrix into its upper band (rows 0 … 4095) and its lower band (rows
  4096 … 4287), and changes the bands' float format, which on the extended reals is the identity. So the weight
  bands the region reads are rows of the weight argument itself: row j of the upper band is row j, row j of the
  lower band is row 4096 + j.
-/
import proofs.«161935_j39608188404137_2_alg».proof.Proof.Gen.KernelIdeal.Frame
import proofs.«161935_j39608188404137_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.PolicyMap

variable (m : (ℓ : Loc nD τ sig) → Buf (Elt Ideal) ℓ)

/-- The flattened move scores. -/
abbrev moves (c : Dev nD) : FVec Ideal S8192x4096 .f32 :=
  shapeCast S8192x4096 (m ((c : Thread nD τ).loc main_arg0)) shapeCasts_S8192x64x64_S8192x4096

/-- The flattened promotion scores. -/
abbrev promos (c : Dev nD) : FVec Ideal S8192x192 .f32 :=
  shapeCast S8192x192 (m ((c : Thread nD τ).loc main_arg1)) shapeCasts_S8192x8x24_S8192x192

/-- The weight matrix, as launched. -/
abbrev weights (c : Dev nD) : FVec Ideal S4288x1858 .f32 := m ((c : Thread nD τ).loc main_arg2)

/-- The first window's array is the flattened move scores. -/
theorem found_moves (c : Dev nD) : (V m c main_v0 : S8192x4096.Idx → EReal) = moves m c := by
  dsimp only [Gen.V, Gen.hostOps0]; after_results <;> rfl

/-- The second window's array is the flattened promotion scores. -/
theorem found_promos (c : Dev nD) : (V m c main_v1 : S8192x192.Idx → EReal) = promos m c := by
  dsimp only [Gen.V, Gen.hostOps0]; after_results <;> rfl

/-- The third window's array is the weight matrix's upper band in the narrower format. -/
theorem found_upper (c : Dev nD) : (V m c main_v3 : S4096x1858.Idx → EReal)
    = truncf .bf16 (extractStridedSlice S4096x1858 ![0, 0] (weights m c) slices_S4288x1858_S4096x1858_0_0) bitsLt_bf16_f32 := by
  dsimp only [Gen.V, Gen.hostOps0]; after_results <;> rfl

/-- The fourth window's array is the weight matrix's lower band in the narrower format. -/
theorem found_lower (c : Dev nD) : (V m c main_v5 : S192x1858.Idx → EReal)
    = truncf .bf16 (extractStridedSlice S192x1858 ![4096, 0] (weights m c) slices_S4288x1858_S192x1858_4096_0) bitsLt_bf16_f32 := by
  dsimp only [Gen.V, Gen.hostOps0]; after_results <;> rfl

/-- Row j, column q of the upper band the region reads is the weight matrix at (j, q). -/
theorem found_upper_apply (c : Dev nD) (j : Fin 4096) (q : Fin 1858) :
    (V m c main_v3 : S4096x1858.Idx → EReal) (ix2 j q) = weights m c (ix2 (upper j) q) := by
  rw [found_upper]
  exact slice2_axis0_apply 0 (weights m c) slices_S4288x1858_S4096x1858_0_0 j q (upper j) (Nat.zero_add _).symm

/-- Row j, column q of the lower band the region reads is the weight matrix at (4096 + j, q). -/
theorem found_lower_apply (c : Dev nD) (j : Fin 192) (q : Fin 1858) :
    (V m c main_v5 : S192x1858.Idx → EReal) (ix2 j q) = weights m c (ix2 (lower j) q) := by
  rw [found_lower]
  exact slice2_axis0_apply 4096 (weights m c) slices_S4288x1858_S192x1858_4096_0 j q (lower j) rfl

end Cert.KernelIdeal.Entry

end
-- ==== Proof.KernelValue.lean ====
/-
  The kernel's result array, whole.

  The kernel runs over 32 batch tiles of 256 rows. At tile t it reads rows 256 t … 256 t + 255 of the flattened
  move scores and of the flattened promotion scores, and both weight bands whole, and writes rows
  256 t … 256 t + 255 of the result. Entry (p, q) of what it stores is the sum over the upper band of
  move (256 t + p, j) · weight (j, q) plus the sum over the lower band of promotion (256 t + p, j) · weight (4096 + j, q):
  entry (256 t + p, q) of the policy map. The 32 tiles cover every row (row r lies in tile r / 256), so after the
  run the result array is the policy map of the flattened scores and the weight matrix.
-/
import proofs.«161935_j39608188404137_2_alg».proof.Proof.Gen.KernelIdeal.Value
import proofs.«161935_j39608188404137_2_alg».proof.Proof.Spec
import proofs.«161935_j39608188404137_2_alg».proof.Proof.Payload
import proofs.«161935_j39608188404137_2_alg».proof.Proof.HostPrefix
import Idealize.ShloMosaic.Lib.Pipeline.Value
import Idealize.ShloMosaic.Lib.ValueIdx

open scoped BigOperators

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.PolicyMap Cert.KernelIdeal.Entry Cert.KernelIdeal.Tile

variable (m : (ℓ : Loc nD τ sig) → Buf (Elt Ideal) ℓ) (ρ : Dev nD → PrngReg)

theorem hz : (![0, 0] : Fin 2 → Nat) = fun _ => 0 := funext fun a => by fin_cases a <;> rfl

/-- The policy map of the flattened scores and the weight matrix as launched. -/
abbrev result (c : Dev nD) : FVec Ideal S8192x1858 .f32 := policy (moves m c) (promos m c) (weights m c)

/-- Where each window's block sits at tile t: the score windows and the result window at block row t, the
    weight bands at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The move tile at t is rows 256 t … 256 t + 255 of the flattened move scores. -/
theorem moves_block (c : Dev nD) (t : Fin cfg0.N) (x : S256x4096.Idx) (k : S8192x4096.Idx)
    (hk0 : (k 0).val = t.val * 256 + (x 0).val) (hk1 : (k 1).val = (x 1).val) :
    (iblk m c 0 t : S256x4096.Idx → EReal) x = moves m c k := by
  obtain ⟨e0, e1, -⟩ := idx_facts t
  refine Eq.trans ?_ (congrFun (found_moves m c) k)
  unfold iblk
  rw [View.read_apply]
  show V m c main_v0 _ = V m c main_v0 _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 4096 + 1 * (x 1).val = (k 1).val; rw [e1, hk1]; omega

/-- The promotion tile at t is rows 256 t … 256 t + 255 of the flattened promotion scores. -/
theorem promos_block (c : Dev nD) (t : Fin cfg0.N) (x : S256x192.Idx) (k : S8192x192.Idx)
    (hk0 : (k 0).val = t.val * 256 + (x 0).val) (hk1 : (k 1).val = (x 1).val) :
    (iblk m c 1 t : S256x192.Idx → EReal) x = promos m c k := by
  obtain ⟨-, -, e0, e1, -⟩ := idx_facts t
  refine Eq.trans ?_ (congrFun (found_promos m c) k)
  unfold iblk
  rw [View.read_apply]
  show V m c main_v1 _ = V m c main_v1 _
  congr 1
  funext a
  apply Fin.ext
  match a with
  | ⟨0, _⟩ => show win0_1.index t (0 : Fin 2) * 256 + 1 * (x 0).val = (k 0).val; rw [e0, hk0]; omega
  | ⟨1, _⟩ => show win0_1.index t (1 : Fin 2) * 192 + 1 * (x 1).val = (k 1).val; rw [e1, hk1]; omega

/-- The upper band's one block, at every tile, is the weight matrix's rows 0 … 4095. -/
theorem upper_block (c : Dev nD) (t : Fin cfg0.N) (j : Fin 4096) (q : Fin 1858) :
    (iblk m c 2 t : S4096x1858.Idx → EReal) (ix2 j q) = weights m c (ix2 (upper j) q) := by
  obtain ⟨-, -, -, -, e0, e1, -⟩ := idx_facts t
  refine Eq.trans ?_ (found_upper_apply m c j q)
  unfold iblk
  rw [View.read_apply]
  show V m c main_v3 _ = V m c main_v3 _
  congr 1
  funext a
  apply Fin.ext
  match a with
  | ⟨0, _⟩ => show win0_2.index t (0 : Fin 2) * 4096 + 1 * j.val = j.val; rw [e0]; omega
  | ⟨1, _⟩ => show win0_2.index t (1 : Fin 2) * 1858 + 1 * q.val = q.val; rw [e1]; omega

/-- The lower band's one block, at every tile, is the weight matrix's rows 4096 … 4287. -/
theorem lower_block (c : Dev nD) (t : Fin cfg0.N) (j : Fin 192) (q : Fin 1858) :
    (iblk m c 3 t : S192x1858.Idx → EReal) (ix2 j q) = weights m c (ix2 (lower j) q) := by
  obtain ⟨-, -, -, -, -, -, e0, e1, -⟩ := idx_facts t
  refine Eq.trans ?_ (found_lower_apply m c j q)
  unfold iblk
  rw [View.read_apply]
  show V m c main_v5 _ = V m c main_v5 _
  congr 1
  funext a
  apply Fin.ext
  match a with
  | ⟨0, _⟩ => show win0_3.index t (0 : Fin 2) * 192 + 1 * j.val = j.val; rw [e0]; omega
  | ⟨1, _⟩ => show win0_3.index t (1 : Fin 2) * 1858 + 1 * q.val = q.val; rw [e1]; omega

/-- A stored tile whose score blocks are rows r0 … r0 + 255 of the scores and whose weight blocks are the two bands
    is rows r0 … r0 + 255 of the policy map. -/
theorem tile_is_policy (A : FVec Ideal S8192x4096 .f32) (B : FVec Ideal S8192x192 .f32) (W : FVec Ideal S4288x1858 .f32)
    (a : FVec Ideal S256x4096 .f32) (b : FVec Ideal S256x192 .f32) (wa : FVec Ideal S4096x1858 .bf16) (wb : FVec Ideal S192x1858 .bf16)
    (r0 : Nat)
    (ha : ∀ (x : S256x4096.Idx) (k : S8192x4096.Idx), (k 0).val = r0 + (x 0).val → (k 1).val = (x 1).val → a x = A k)
    (hb : ∀ (x : S256x192.Idx) (k : S8192x192.Idx), (k 0).val = r0 + (x 0).val → (k 1).val = (x 1).val → b x = B k)
    (hwa : ∀ (j : Fin 4096) (q : Fin 1858), wa (ix2 j q) = W (ix2 (upper j) q))
    (hwb : ∀ (j : Fin 192) (q : Fin 1858), wb (ix2 j q) = W (ix2 (lower j) q))
    (y : S256x1858.Idx) (i : S8192x1858.Idx) (hi0 : (i 0).val = r0 + (y 0).val) (hi1 : (i 1).val = (y 1).val) :
    k0_pay1 (F := Ideal) a b wa wb y = policy A B W i := by
  obtain ⟨p, q, rfl⟩ : ∃ (p : Fin 256) (q : Fin 1858), y = ix2 p q := ⟨y 0, y 1, eq_ix2 y⟩
  obtain ⟨P, Q, rfl⟩ : ∃ (P : Fin 8192) (Q : Fin 1858), i = ix2 P Q := ⟨i 0, i 1, eq_ix2 i⟩
  obtain rfl : Q = q := Fin.ext hi1
  rw [stored_apply, policy_ix2]
  unfold policyAt
  refine congrArg₂ (· + ·) (Finset.sum_congr rfl fun j _ => ?_) (Finset.sum_congr rfl fun j _ => ?_)
  · rw [ha (ix2 p j) (ix2 P j) hi0 rfl, hwa]
  · rw [hb (ix2 p j) (ix2 P j) hi0 rfl, hwb]

/-- What tile t writes back is rows 256 t … 256 t + 255 of the policy map. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S256x4096) hz, View.ld_unit_zero (S := S256x192) hz,
    View.ld_unit_zero (S := S4096x1858) hz, View.ld_unit_zero (S := S192x1858) hz]
  obtain ⟨-, -, -, -, -, -, -, -, e0, e1⟩ := idx_facts t
  funext y
  rw [View.read_apply]
  show k0_pay1 (F := Ideal) (iblk m c 0 t) (iblk m c 1 t) (iblk m c 2 t) (iblk m c 3 t) y
    = result m c (((cfg0.win 4).blk t).view.emb y)
  refine tile_is_policy (moves m c) (promos m c) (weights m c) (iblk m c 0 t) (iblk m c 1 t) (iblk m c 2 t) (iblk m c 3 t)
    (t.val * 256) (fun x k h0 h1 => moves_block m c t x k h0 h1) (fun x k h0 h1 => promos_block m c t x k h0 h1)
    (fun j q => upper_block m c t j q) (fun j q => lower_block m c t j q) y _ ?_ ?_
  · show win0_4.index t (0 : Fin 2) * 256 + 1 * (y 0).val = t.val * 256 + (y 0).val
    rw [e0]; omega
  · show win0_4.index t (1 : Fin 2) * 1858 + 1 * (y 1).val = (y 1).val
    rw [e1]; omega

/-- An index of the result array is in tile t's block iff each coordinate is in the block's range on its axis. -/
theorem mem_blk (t : Fin cfg0.N) (i : S8192x1858.Idx) :
    i ∈ ((cfg0.win 4).blk t).view.set ↔ ∀ a : Fin 2, win0_4.index t a * S256x1858.size a ≤ (i a).val
      ∧ (i a).val < win0_4.index t a * S256x1858.size a + S256x1858.size a := by
  show i ∈ ((View.whole main_v6).slice (win0_4.rect t)).set ↔ _
  rw [View.set_slice_whole, Rect.mem_set_unit]
  exact Iff.rfl

/-- Every entry of the result array is written by some tile: row r by tile r / 256. -/
theorem cover (i : S8192x1858.Idx) :
    ∃ t : Fin cfg0.N, (cfg0.win 4).flush t = true ∧ i ∈ ((cfg0.win 4).blk t).view.set := by
  have hN : cfg0.N = 32 := N_0
  have hi0 : (i 0).val < 8192 := (i 0).isLt
  have hi1 : (i 1).val < 1858 := (i 1).isLt
  obtain ⟨t, ht⟩ : ∃ t : Fin cfg0.N, t.val = (i 0).val / 256 := ⟨⟨(i 0).val / 256, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e0]; omega
  | ⟨1, _⟩ =>
    show win0_4.index t (1 : Fin 2) * 1858 ≤ (i 1).val ∧ (i 1).val < win0_4.index t (1 : Fin 2) * 1858 + 1858
    rw [e1]; omega

/-- After the run the result array is the policy map. -/
theorem final (c : Dev nD) : (dats m 0 c).arrAt 4 cfg0.N = result m c :=
  (dats m 0 c).arrAt_eq_of_cover 4 (result m c) (fun t _ => flushed_eq m c t) cover

/-- The kernel's run: every weakly fair execution ends with the result array at the policy map, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference's result is the policy map.

  The reference flattens each batch row of the move scores and of the promotion scores, joins the two flattened
  rows into one row of 4288 scores, and multiplies by the whole weight matrix. The product's entry (p, q) is a
  sum over the 4288 weight rows; its first 4096 terms read the move scores against the upper band and its last
  192 the promotion scores against the lower band, so it is the policy map of the flattened scores and the
  weight matrix.
-/
import proofs.«161935_j39608188404137_2_alg».proof.Proof.Gen.ReferenceIdeal.Read
import proofs.«161935_j39608188404137_2_alg».proof.Proof.Spec

noncomputable section

namespace Cert.ReferenceIdeal.RefValue

open Cert.ReferenceIdeal Cert.ReferenceIdeal.Gen Cert.ReferenceIdeal.Read Idealize.ShloMosaic Cert.PolicyMap

/-- The reference's last stage, as a function of the three arguments, is the policy map of the flattened scores. -/
theorem result_eq (x0 : (⟨S8192x64x64, .f32⟩ : BufTy).Contents (Elt Ideal)) (x1 : (⟨S8192x8x24, .f32⟩ : BufTy).Contents (Elt Ideal))
    (x2 : (⟨S4288x1858, .f32⟩ : BufTy).Contents (Elt Ideal)) :
    val_main_v3 (F := Ideal) x0 x1 x2
      = policy (shapeCast S8192x4096 x0 shapeCasts_S8192x64x64_S8192x4096) (shapeCast S8192x192 x1 shapeCasts_S8192x8x24_S8192x192) x2 := by
  unfold val_main_v3 val_main_v2 val_main_v1 val_main_v0
  simp only [Host.dotGeneral]
  exact dot_joined_eq_policy _ _ concatenates_S8192x4096_S8192x192_S8192x4288_d1 x2
    dot_S8192x4288_S4288x1858_S8192x1858_1_0_0_1_n_n rfl rfl rfl rfl rfl rfl none _

end Cert.ReferenceIdeal.RefValue

end
-- ==== Proof.lean ====
/-
  The policy-map kernel against its reference, on the extended reals.

  Both programs map a batch of move scores [8192, 64, 64] and promotion scores [8192, 8, 24] through a weight
  matrix [4288, 1858] to [8192, 1858] outputs: each batch row's scores are flattened (4096 move scores followed by
  192 promotion scores) and multiplied by the weight matrix. The reference joins the two flattened rows and takes
  one product over all 4288 weight rows. The kernel never joins them: tile by tile of 256 batch rows it multiplies
  the move scores by the weight matrix's upper band (rows 0 … 4095) and the promotion scores by its lower band
  (rows 4096 … 4287), each product started from zero, and adds the two; the narrower float format it gives the
  operands of each product is, on the extended reals, no change at all.

  The two results agree entry by entry because a finite sum over the 4288 weight rows is the sum over the first
  4096 of them plus the sum over the last 192: a finite sum over a disjoint union splits in any commutative monoid,
  so the equation holds for every extended-real input, infinite ones included, and the precondition is not used.

  The modules: Spec (the policy map as one function of the flattened scores and the weights; the splitting of the
  sum; the joined row read at a column; the reference's product is the policy map), LibMatmul (a rank-2 matrix
  product read at an entry as a sum over the contracted position), Payload (the entry the kernel body stores),
  HostPrefix (the arrays the kernel's region reads are the flattened scores and the weight bands), KernelValue
  (a tile's block reads; a stored tile is a block of rows of the policy map; the 32 tiles cover the result; the
  kernel's run), RefValue (the reference's last stage is the policy map). The three frames come from the generated
  frame runs and the generated run of the reference; the idealization rewrote nothing, so there is nothing to
  preserve beyond the program's own text.
-/
import proofs.«161935_j39608188404137_2_alg».proof.Defs
import proofs.«161935_j39608188404137_2_alg».proof.Proof.Gen.Kernel
import proofs.«161935_j39608188404137_2_alg».proof.Proof.Gen.Kernel.Skeleton
import proofs.«161935_j39608188404137_2_alg».proof.Proof.Gen.Kernel.Launch
import proofs.«161935_j39608188404137_2_alg».proof.Proof.Gen.Kernel.Points
import proofs.«161935_j39608188404137_2_alg».proof.Proof.Gen.Kernel.Frame
import proofs.«161935_j39608188404137_2_alg».proof.Proof.Gen.KernelIdeal
import proofs.«161935_j39608188404137_2_alg».proof.Proof.Gen.KernelIdeal.Skeleton
import proofs.«161935_j39608188404137_2_alg».proof.Proof.Gen.KernelIdeal.Launch
import proofs.«161935_j39608188404137_2_alg».proof.Proof.Gen.KernelIdeal.Points
import proofs.«161935_j39608188404137_2_alg».proof.Proof.Gen.KernelIdeal.Frame
import proofs.«161935_j39608188404137_2_alg».proof.Proof.Gen.ReferenceIdeal
import proofs.«161935_j39608188404137_2_alg».proof.Proof.Gen.Pre_finite_inputs
import proofs.«161935_j39608188404137_2_alg».proof.Proof.Gen.KernelIdeal.Value
import proofs.«161935_j39608188404137_2_alg».proof.Proof.Gen.ReferenceIdeal.Run
import proofs.«161935_j39608188404137_2_alg».proof.Proof.Gen.ReferenceIdeal.Read
import proofs.«161935_j39608188404137_2_alg».proof.Proof.KernelValue
import proofs.«161935_j39608188404137_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the policy map of the flattened scores
    and the weight matrix in their result arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
